-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S128 .f32) (main_arg7 : FVec F S128x128 .f32) (main_arg8 : FVec F S128x2 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x2 .f32 := Host.absf main_arg8
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 72
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S1x2, .f32⟩
  | .hbm, ⟨71, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S128x2, .f32⟩
  | .local _ .vmem, ⟨34, _⟩ => ⟨S1x2, .f32⟩
  | .local _ .vmem, ⟨35, _⟩ => ⟨S5000x2, .f32⟩
  | .local _ .vmem, ⟨36, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v12 : Ref sig .tc := ⟨.hbm, 33, rfl⟩
abbrev main_cst_6 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_7 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_8 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_9 : Ref sig .tc := ⟨.hbm, 55, rfl⟩
abbrev main_v30 : Ref sig .tc := ⟨.hbm, 56, rfl⟩
abbrev main_v31 : Ref sig .tc := ⟨.hbm, 57, rfl⟩
abbrev main_c_10 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem5_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x2.size a ≤ S128x2.size a
  hwx4_3 : ∀ i : grid4.Coords, EltTy.bits .f32 = 32 ∨ (Rect.block (s := S128x2) S128x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x2.size a ≤ S100000x2.size a
  hwx4_5 : ∀ i : grid4.Coords, EltTy.bits .f32 = 32 ∨ (Rect.block (s := S100000x2) S5000x2.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S128x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v43) S5000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x2, .f32⟩
  | .hbm, ⟨88, _⟩ => ⟨S1x2, .f32⟩
  | .hbm, ⟨89, _⟩ => ⟨S100000x2, .f32⟩
  | .hbm, ⟨90, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v11 : Ref sig .tc := ⟨.hbm, 32, rfl⟩
abbrev main_cst_6 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_7 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call2_cst : Ref sig .tc := ⟨.hbm, 59, rfl⟩
abbrev main_call2_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_c_10 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«113129_j30442728194391_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«113129_j30442728194391_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibScaledConv.lean ====
/-
  The dense stages of a graph convolution whose rows are scaled by a per-node factor, on the extended reals, each as
  ONE function of its operands at any number of rows:

  * `scaleMm X s W`  — every row of `X` multiplied by that row's entry of the one-column array `s`, then the
    product with the weight matrix `W`:  entry (p, q) is  Σ_k (X (p, k) · s p) · W (k, q);
  * `scaleBias A s b` — every row of `A` multiplied by its entry of `s`, then the one-row array `b` added to every
    row:  entry (p, q) is  A (p, q) · s p + b q;
  * `head H X Wr Wm b` — a residual and a linear head:  (H + X · Wr) · Wm + b.

  Row `p` of each result depends only on row `p` of the arrays with as many rows as the result (and on the whole of
  the small operands): so a block of consecutive rows of the result is the same function of that block of rows, which
  is what lets a result computed block by block be read as one function of the whole arrays. Then the two spellings
  each stage has in a program: a vector unit's (a column or row broadcast along the other axis, products accumulated
  into a zero splat, changes of float format that are the identity here) and a host program's (a vector broadcast in
  two steps, general dots). None mentions a program.
-/
import proofs.«113129_j30442728194391_1_alg».proof.Proof.LibRowBlocks

noncomputable section

namespace Cert.ScaledConv

open Idealize.ShloMosaic Idealize.ShloMosaic.ValueIdx Cert.LayoutLib Cert.DenseLib Cert.RowBlocks

/-- Every row of `X` multiplied by that row's entry of the one-column array `s`. -/
def scaleRows {M K : ℕ} (X : (⟨2, ![M, K]⟩ : Shape).Idx → EReal) (s : (⟨2, ![M, 1]⟩ : Shape).Idx → EReal) :
    (⟨2, ![M, K]⟩ : Shape).Idx → EReal := fun i => X i * s (ix2 (n0 := M) (i 0) (0 : Fin 1))

/-- `(X with row p scaled by s p) · W`. -/
def scaleMm {M K N : ℕ} (X : (⟨2, ![M, K]⟩ : Shape).Idx → EReal) (s : (⟨2, ![M, 1]⟩ : Shape).Idx → EReal)
    (W : (⟨2, ![K, N]⟩ : Shape).Idx → EReal) : (⟨2, ![M, N]⟩ : Shape).Idx → EReal := mm (scaleRows X s) W

/-- `A` with row `p` scaled by `s p`, plus the one-row array `b` laid along every row. -/
def scaleBias {M N : ℕ} (A : (⟨2, ![M, N]⟩ : Shape).Idx → EReal) (s : (⟨2, ![M, 1]⟩ : Shape).Idx → EReal)
    (b : (⟨2, ![1, N]⟩ : Shape).Idx → EReal) : (⟨2, ![M, N]⟩ : Shape).Idx → EReal :=
  fun i => A i * s (ix2 (n0 := M) (i 0) (0 : Fin 1)) + b (ix2 (0 : Fin 1) (n1 := N) (i 1))

/-- `(H + X · Wr) · Wm + b`: a residual through `Wr`, then a linear head with the one-row bias `b`. -/
def head {M K N : ℕ} (H X : (⟨2, ![M, K]⟩ : Shape).Idx → EReal) (Wr : (⟨2, ![K, K]⟩ : Shape).Idx → EReal)
    (Wm : (⟨2, ![K, N]⟩ : Shape).Idx → EReal) (b : (⟨2, ![1, N]⟩ : Shape).Idx → EReal) : (⟨2, ![M, N]⟩ : Shape).Idx → EReal :=
  fun i => mm (plus H (mm X Wr)) Wm i + b (ix2 (0 : Fin 1) (n1 := N) (i 1))

/-! ## Each row of a result depends on that row of the tall operands only -/

/-- An entry of `scaleMm` is determined by its row of `X` and that row's scale. -/
theorem scaleMm_eq_of_row {M M' K N : ℕ}
    (X' : (⟨2, ![M', K]⟩ : Shape).Idx → EReal) (s' : (⟨2, ![M', 1]⟩ : Shape).Idx → EReal) (W' : (⟨2, ![K, N]⟩ : Shape).Idx → EReal)
    (X : (⟨2, ![M, K]⟩ : Shape).Idx → EReal) (s : (⟨2, ![M, 1]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val)
    (hx : ∀ k : Fin K, X' (ix2 (n0 := M') (j 0) k) = X (ix2 (n0 := M) (i 0) k))
    (hs : s' (ix2 (n0 := M') (j 0) (0 : Fin 1)) = s (ix2 (n0 := M) (i 0) (0 : Fin 1))) :
    scaleMm X' s' W' j = scaleMm X s W i :=
  mm_eq_of_row _ _ _ _ j i hw hq fun k => by
    show X' (ix2 (n0 := M') (j 0) k) * s' (ix2 (n0 := M') (j 0) (0 : Fin 1)) = X (ix2 (n0 := M) (i 0) k) * s (ix2 (n0 := M) (i 0) (0 : Fin 1))
    rw [hx k, hs]

/-- An entry of `scaleBias` is determined by the same entry of `A`, its row's scale and its column's bias. -/
theorem scaleBias_eq_of_entry {M M' N : ℕ}
    (A' : (⟨2, ![M', N]⟩ : Shape).Idx → EReal) (s' : (⟨2, ![M', 1]⟩ : Shape).Idx → EReal) (b' : (⟨2, ![1, N]⟩ : Shape).Idx → EReal)
    (A : (⟨2, ![M, N]⟩ : Shape).Idx → EReal) (s : (⟨2, ![M, 1]⟩ : Shape).Idx → EReal) (b : (⟨2, ![1, N]⟩ : Shape).Idx → EReal)
    (j : (⟨2, ![M', N]⟩ : Shape).Idx) (i : (⟨2, ![M, N]⟩ : Shape).Idx)
    (hb : b' = b) (hq : (j 1).val = (i 1).val) (hx : A' j = A i)
    (hs : s' (ix2 (n0 := M') (j 0) (0 : Fin 1)) = s (ix2 (n0 := M) (i 0) (0 : Fin 1))) :
    scaleBias A' s' b' j = scaleBias A s b i := by
  subst hb
  have e : (j 1 : Fin N) = (i 1 : Fin N) := Fin.ext hq
  show A' j * s' (ix2 (n0 := M') (j 0) (0 : Fin 1)) + b' (ix2 (0 : Fin 1) (n1 := N) (j 1))
    = A i * s (ix2 (n0 := M) (i 0) (0 : Fin 1)) + b' (ix2 (0 : Fin 1) (n1 := N) (i 1))
  rw [hx, hs, e]

/-- An entry of `head` is determined by its row of `H` and of `X`. -/
theorem head_eq_of_row {M M' K N : ℕ}
    (H' X' : (⟨2, ![M', K]⟩ : Shape).Idx → EReal) (Wr' : (⟨2, ![K, K]⟩ : Shape).Idx → EReal)
    (Wm' : (⟨2, ![K, N]⟩ : Shape).Idx → EReal) (b' : (⟨2, ![1, N]⟩ : Shape).Idx → EReal)
    (H X : (⟨2, ![M, K]⟩ : Shape).Idx → EReal) (Wr : (⟨2, ![K, K]⟩ : Shape).Idx → EReal)
    (Wm : (⟨2, ![K, N]⟩ : Shape).Idx → EReal) (b : (⟨2, ![1, N]⟩ : Shape).Idx → EReal)
    (j : (⟨2, ![M', N]⟩ : Shape).Idx) (i : (⟨2, ![M, N]⟩ : Shape).Idx)
    (hr : Wr' = Wr) (hm : Wm' = Wm) (hb : b' = b) (hq : (j 1).val = (i 1).val)
    (hh : ∀ k : Fin K, H' (ix2 (n0 := M') (j 0) k) = H (ix2 (n0 := M) (i 0) k))
    (hx : ∀ k : Fin K, X' (ix2 (n0 := M') (j 0) k) = X (ix2 (n0 := M) (i 0) k)) :
    head H' X' Wr' Wm' b' j = head H X Wr Wm b i := by
  subst hr hb
  have e : (j 1 : Fin N) = (i 1 : Fin N) := Fin.ext hq
  have h1 : mm (plus H' (mm X' Wr')) Wm' j = mm (plus H (mm X Wr')) Wm i :=
    mm_eq_of_row _ _ _ _ j i hm hq fun k => by
      show H' (ix2 (n0 := M') (j 0) k) + mm X' Wr' (ix2 (n0 := M') (j 0) k) = H (ix2 (n0 := M) (i 0) k) + mm X Wr' (ix2 (n0 := M) (i 0) k)
      rw [hh k, mm_row X' X Wr' (j 0) (i 0) hx k]
  show mm (plus H' (mm X' Wr')) Wm' j + b' (ix2 (0 : Fin 1) (n1 := N) (j 1)) = mm (plus H (mm X Wr')) Wm i + b' (ix2 (0 : Fin 1) (n1 := N) (i 1))
  rw [h1, e]

/-! ## The vector unit's spellings -/

/-- A column broadcast along the rows and multiplied in entry by entry scales the rows. -/
theorem mulf_broadcastCol {M K : ℕ} (X : FVec Ideal ⟨2, ![M, K]⟩ .f32) (s : FVec Ideal ⟨2, ![M, 1]⟩ .f32)
    (h : (⟨2, ![M, 1]⟩ : Shape).Broadcasts ⟨2, ![M, K]⟩) : mulf X (broadcastTo ⟨2, ![M, K]⟩ s h) = scaleRows X s := by
  funext i
  obtain ⟨p, q, rfl⟩ : ∃ (p : Fin M) (q : Fin K), i = ix2 p q := ⟨i 0, i 1, eq_ix2 i⟩
  show X (ix2 p q) * broadcastTo ⟨2, ![M, K]⟩ s h (ix2 p q) = X (ix2 p q) * s (ix2 p (0 : Fin 1))
  rw [broadcastTo_col_apply]

/-- The row scaling, then a one-row array broadcast down the rows and added. -/
theorem addf_mulf_broadcast {M N : ℕ} (A : FVec Ideal ⟨2, ![M, N]⟩ .f32) (s : FVec Ideal ⟨2, ![M, 1]⟩ .f32)
    (b : FVec Ideal ⟨2, ![1, N]⟩ .f32) (hs : (⟨2, ![M, 1]⟩ : Shape).Broadcasts ⟨2, ![M, N]⟩)
    (hb : (⟨2, ![1, N]⟩ : Shape).Broadcasts ⟨2, ![M, N]⟩) :
    addf (mulf A (broadcastTo ⟨2, ![M, N]⟩ s hs)) (broadcastTo ⟨2, ![M, N]⟩ b hb) = scaleBias A s b := by
  funext i
  obtain ⟨p, q, rfl⟩ : ∃ (p : Fin M) (q : Fin N), i = ix2 p q := ⟨i 0, i 1, eq_ix2 i⟩
  show A (ix2 p q) * broadcastTo ⟨2, ![M, N]⟩ s hs (ix2 p q) + broadcastTo ⟨2, ![M, N]⟩ b hb (ix2 p q)
    = A (ix2 p q) * s (ix2 p (0 : Fin 1)) + b (ix2 (0 : Fin 1) q)
  rw [broadcastTo_col_apply, broadcastTo_1b_ab_apply]

/-! ## The host's spellings: the scale and the bias arrive as vectors -/

/-- A vector broadcast to a column, then along the rows, and multiplied in scales the rows by the vector recast as a column. -/
theorem mulf_broadcastVec {M K : ℕ} (X : FVec Ideal ⟨2, ![M, K]⟩ .f32) (v : FVec Ideal ⟨1, ![M]⟩ .f32)
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2))
    (hc : (⟨1, ![M]⟩ : Shape).ShapeCasts ⟨2, ![M, 1]⟩) :
    mulf X (broadcastInDim ⟨2, ![M, K]⟩ ![0, 1] h2 (broadcastInDim ⟨2, ![M, 1]⟩ ![0] h1 v))
      = scaleRows X (shapeCast ⟨2, ![M, 1]⟩ v hc) := by
  funext i
  obtain ⟨p, q, rfl⟩ : ∃ (p : Fin M) (q : Fin K), i = ix2 p q := ⟨i 0, i 1, eq_ix2 i⟩
  show X (ix2 p q) * broadcastInDim ⟨2, ![M, K]⟩ ![0, 1] h2 (broadcastInDim ⟨2, ![M, 1]⟩ ![0] h1 v) (ix2 p q)
    = X (ix2 p q) * shapeCast ⟨2, ![M, 1]⟩ v hc (ix2 p (0 : Fin 1))
  rw [broadcastInDim_col_apply, broadcastInDim_vecCol_apply, shapeCast_col_apply]

/-- The host's scaled product is `scaleMm` at the scale vector recast as a column. -/
theorem dotGeneral_mulf_broadcastVec {M K N : ℕ} (D : DotDims ⟨2, ![M, K]⟩ ⟨2, ![K, N]⟩ ⟨2, ![M, N]⟩) (hD : D = DotDims.plain M K N)
    (X : FVec Ideal ⟨2, ![M, K]⟩ .f32) (v : FVec Ideal ⟨1, ![M]⟩ .f32) (W : FVec Ideal ⟨2, ![K, N]⟩ .f32)
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2))
    (hc : (⟨1, ![M]⟩ : Shape).ShapeCasts ⟨2, ![M, 1]⟩) :
    Host.dotGeneral D none (mulf X (broadcastInDim ⟨2, ![M, K]⟩ ![0, 1] h2 (broadcastInDim ⟨2, ![M, 1]⟩ ![0] h1 v))) W
      = scaleMm X (shapeCast ⟨2, ![M, 1]⟩ v hc) W := by
  rw [dotGeneral_eq_mm D hD, mulf_broadcastVec X v h1 h2 hc]
  rfl

/-- The host's scaling and bias, both from vectors, is `scaleBias` at the vectors recast as a column and as a row. -/
theorem addf_mulf_broadcastVec {M N : ℕ} (A : FVec Ideal ⟨2, ![M, N]⟩ .f32) (v : FVec Ideal ⟨1, ![M]⟩ .f32) (b : FVec Ideal ⟨1, ![N]⟩ .f32)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (hc : (⟨1, ![M]⟩ : Shape).ShapeCasts ⟨2, ![M, 1]⟩) (hr : (⟨1, ![N]⟩ : Shape).ShapeCasts ⟨2, ![1, N]⟩) :
    addf (mulf A (broadcastInDim ⟨2, ![M, N]⟩ ![0, 1] h2 (broadcastInDim ⟨2, ![M, 1]⟩ ![0] h1 v)))
        (broadcastInDim ⟨2, ![M, N]⟩ ![0, 1] h4 (broadcastInDim ⟨2, ![1, N]⟩ ![1] h3 b))
      = scaleBias A (shapeCast ⟨2, ![M, 1]⟩ v hc) (shapeCast ⟨2, ![1, N]⟩ b hr) := by
  funext i
  obtain ⟨p, q, rfl⟩ : ∃ (p : Fin M) (q : Fin N), i = ix2 p q := ⟨i 0, i 1, eq_ix2 i⟩
  show A (ix2 p q) * broadcastInDim ⟨2, ![M, N]⟩ ![0, 1] h2 (broadcastInDim ⟨2, ![M, 1]⟩ ![0] h1 v) (ix2 p q)
      + broadcastInDim ⟨2, ![M, N]⟩ ![0, 1] h4 (broadcastInDim ⟨2, ![1, N]⟩ ![1] h3 b) (ix2 p q)
    = A (ix2 p q) * shapeCast ⟨2, ![M, 1]⟩ v hc (ix2 p (0 : Fin 1)) + shapeCast ⟨2, ![1, N]⟩ b hr (ix2 (0 : Fin 1) q)
  rw [broadcastInDim_col_apply, broadcastInDim_vecCol_apply, shapeCast_col_apply,
    broadcastInDim_row_apply, broadcastInDim_vecRow_apply, shapeCast_vecRow_apply]

/-- The host's residual and head, the bias from a vector, is `head` at the bias recast as a row. -/
theorem head_host {M K N : ℕ}
    (D1 : DotDims ⟨2, ![M, K]⟩ ⟨2, ![K, K]⟩ ⟨2, ![M, K]⟩) (hD1 : D1 = DotDims.plain M K K)
    (D2 : DotDims ⟨2, ![M, K]⟩ ⟨2, ![K, N]⟩ ⟨2, ![M, N]⟩) (hD2 : D2 = DotDims.plain M K N)
    (H X : FVec Ideal ⟨2, ![M, K]⟩ .f32) (Wr : FVec Ideal ⟨2, ![K, K]⟩ .f32) (Wm : FVec Ideal ⟨2, ![K, N]⟩ .f32) (b : FVec Ideal ⟨1, ![N]⟩ .f32)
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (hr : (⟨1, ![N]⟩ : Shape).ShapeCasts ⟨2, ![1, N]⟩) :
    addf (Host.dotGeneral D2 none (addf H (Host.dotGeneral D1 none X Wr)) Wm)
        (broadcastInDim ⟨2, ![M, N]⟩ ![0, 1] h4 (broadcastInDim ⟨2, ![1, N]⟩ ![1] h3 b))
      = head H X Wr Wm (shapeCast ⟨2, ![1, N]⟩ b hr) := by
  rw [dotGeneral_eq_mm D1 hD1, dotGeneral_eq_mm D2 hD2]
  funext i
  obtain ⟨p, q, rfl⟩ : ∃ (p : Fin M) (q : Fin N), i = ix2 p q := ⟨i 0, i 1, eq_ix2 i⟩
  show mm (plus H (mm X Wr)) Wm (ix2 p q) + broadcastInDim ⟨2, ![M, N]⟩ ![0, 1] h4 (broadcastInDim ⟨2, ![1, N]⟩ ![1] h3 b) (ix2 p q)
    = mm (plus H (mm X Wr)) Wm (ix2 p q) + shapeCast ⟨2, ![1, N]⟩ b hr (ix2 (0 : Fin 1) q)
  rw [broadcastInDim_row_apply, broadcastInDim_vecRow_apply, shapeCast_vecRow_apply]

end Cert.ScaledConv

end
-- ==== Proof.Blocks.lean ====
/-
  What each kernel body computes on one block, over the extended reals: the body's arithmetic, as one term of the
  blocks it loads, is the corresponding dense stage at the block's 5000 rows.

  * bodies 0 and 2: the block of rows scaled by its column of degree factors, times the whole weight matrix (the
    changes of float format are the identity, the product is accumulated into zero);
  * bodies 1 and 3: the block of aggregated rows scaled by its column of degree factors plus the bias row, body 1 then
    cut at zero;
  * body 4: the block of hidden rows plus the block of input rows times the residual matrix, times the head matrix,
    plus the head's bias row.
-/
import proofs.«113129_j30442728194391_1_alg».proof.Proof.Gen.KernelIdeal.Skeleton
import proofs.«113129_j30442728194391_1_alg».proof.Proof.LibScaledConv

noncomputable section

namespace Cert.KernelIdeal.Blocks

open Idealize.ShloMosaic Idealize.ShloMosaic.ValueIdx Cert.KernelIdeal Cert.KernelIdeal.Gen
open Cert.LayoutLib Cert.DenseLib Cert.RowBlocks Cert.ScaledConv

theorem dot_square : dot_S5000x128_S128x128_S5000x128_1_0_0_1_n_n = DotDims.plain 5000 128 128 := rfl
theorem dot_head : dot_S5000x128_S128x2_S5000x2_1_0_0_1_n_n = DotDims.plain 5000 128 2 := rfl

/-- Body 0 on a block: the rows scaled by their degree factors, times the weights. -/
theorem pay0 (x : Vec Ideal S5000x128 .f32) (s : Vec Ideal S5000x1 .f32) (w : Vec Ideal S128x128 .f32) :
    k0_pay1 (F := Ideal) x s w = scaleMm (M := 5000) (K := 128) (N := 128) x s w := by
  unfold k0_pay1
  dsimp only
  rw [shapeCast_self, matmul_eq_mm _ dot_square]
  rw [mulf_broadcastCol]
  rfl

/-- Body 2 on a block: the same stage. -/
theorem pay2 (x : Vec Ideal S5000x128 .f32) (s : Vec Ideal S5000x1 .f32) (w : Vec Ideal S128x128 .f32) :
    k2_pay1 (F := Ideal) x s w = scaleMm (M := 5000) (K := 128) (N := 128) x s w := by
  unfold k2_pay1
  dsimp only
  rw [shapeCast_self, shapeCast_self, matmul_eq_mm _ dot_square]
  rw [mulf_broadcastCol]
  rfl

/-- Body 1 on a block: the rows scaled, the bias row added, the cut at zero. -/
theorem pay1 (a : Vec Ideal S5000x128 .f32) (s : Vec Ideal S5000x1 .f32) (b : Vec Ideal S1x128 .f32) :
    k1_pay1 (F := Ideal) a s b = relu (scaleBias (M := 5000) (N := 128) a s b) := by
  unfold k1_pay1
  dsimp only
  rw [shapeCast_self, shapeCast_self, shapeCast_self, maximumf_splat_zero, addf_mulf_broadcast]

/-- Body 3 on a block: the rows scaled and the bias row added. -/
theorem pay3 (a : Vec Ideal S5000x128 .f32) (s : Vec Ideal S5000x1 .f32) (b : Vec Ideal S1x128 .f32) :
    k3_pay1 (F := Ideal) a s b = scaleBias (M := 5000) (N := 128) a s b := by
  unfold k3_pay1
  dsimp only
  rw [shapeCast_self, shapeCast_self, shapeCast_self, addf_mulf_broadcast]

/-- Body 4 on a block: the residual and the head. Its loads come in program order: the input rows, the residual
    matrix, the hidden rows, the head matrix, the head's bias row. -/
theorem pay4 (x : Vec Ideal S5000x128 .f32) (wr : Vec Ideal S128x128 .f32) (h : Vec Ideal S5000x128 .f32)
    (wm : Vec Ideal S128x2 .f32) (b : Vec Ideal S1x2 .f32) :
    k4_pay1 (F := Ideal) x wr h wm b = head (M := 5000) (K := 128) (N := 2) h x wr wm b := by
  unfold k4_pay1
  dsimp only
  rw [shapeCast_self, shapeCast_self, matmul_eq_mm _ dot_square, matmul_eq_mm _ dot_head]
  funext i
  obtain ⟨p, q, rfl⟩ : ∃ (p : Fin 5000) (q : Fin 2), i = ix2 p q := ⟨i 0, i 1, eq_ix2 i⟩
  show mm (plus h (mm x wr)) wm (ix2 p q) + broadcastTo S5000x2 b broadcasts_S1x2_S5000x2 (ix2 p q)
    = mm (plus h (mm x wr)) wm (ix2 p q) + b (ix2 (0 : Fin 1) q)
  rw [broadcastTo_1b_ab_apply]

end Cert.KernelIdeal.Blocks

end
-- ==== Proof.Regions.lean ====
/-
  What each region's output array holds once its pipeline has run, for ANY contents `V` of the TensorCore's buffers at
  the region's entry: one dense stage of the entry arrays, whole.

  Every region walks 20 blocks of 5000 consecutive rows. At point `t` the tall windows (the rows, their degree
  factors, the output) sit at block `t` of their arrays and the small ones (weights, bias row) are their whole
  arrays; the body leaves in the output's buffer the stage of the blocks it loaded (module Blocks), and because a row
  of the stage depends only on that row of the tall operands, this is block `t` of the stage of the whole arrays.
  The 20 blocks cover the array, so it ends holding the stage everywhere.
-/
import proofs.«113129_j30442728194391_1_alg».proof.Proof.Gen.KernelIdeal.Frame
import proofs.«113129_j30442728194391_1_alg».proof.Proof.Blocks
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen Cert.KernelIdeal.Blocks Cert.ScaledConv Cert.DenseLib
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the input rows scaled by the out-degree factors, times the first layer's weights -/

/-- Region 0's index maps over its points: the rows, the factors and the output move together down the rows, the
    weights stay, and no window moves along the columns. -/
theorem idx0 : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every block of rows is some point's. -/
theorem onto0 : ∀ q : Fin 20, ∃ t : Fin cfg0.N, win0_3.index t (0 : Fin 2) = q.val :=
  (by decide +kernel : ∀ q : Fin 20, ∃ t : Fin grid0.N, win0_3.index t (0 : Fin 2) = q.val)

/-- What point `t` writes back is block `t` of the stage of the whole entry arrays. -/
theorem flushed0 (c : Dev nD) (t : Fin cfg0.N) :
    (dat0 (F := Ideal) V c).flushed 3 t = ((cfg0.win 3).blk t).view.read (Elt Ideal)
      (scaleMm (M := 100000) (K := 128) (N := 128) (V c main_arg0) (V c main_v7) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  rw [pay0]
  obtain ⟨e0, e1, e2, e3, e4, e5, e6, e7⟩ := idx0 t
  funext j
  show scaleMm (M := 5000) (K := 128) (N := 128) (iblk0 V c 0 t) (iblk0 V c 1 t) (iblk0 V c 2 t) j
    = scaleMm (M := 100000) (K := 128) (N := 128) (V c main_arg0) (V c main_v7) (V c main_arg3) (((cfg0.win 3).blk t).view.emb j)
  refine scaleMm_eq_of_row (iblk0 V c 0 t) (iblk0 V c 1 t) (iblk0 V c 2 t) (V c main_arg0) (V c main_v7) (V c main_arg3)
    j (((cfg0.win 3).blk t).view.emb j) ?_ ?_ (fun k => ?_) ?_
  · funext y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · show (j 1).val = win0_3.index t (1 : Fin 2) * 128 + 1 * (j 1).val
    omega
  · show V c main_arg0 (((cfg0.win 0).blk t).view.emb (ix2 (n0 := 5000) (j 0) k)) = V c main_arg0 (ix2 (n0 := 100000) ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_v7 (((cfg0.win 1).blk t).view.emb (ix2 (n0 := 5000) (j 0) (0 : Fin 1))) = V c main_v7 (ix2 (n0 := 100000) ((((cfg0.win 3).blk t).view.emb j) 0) (0 : Fin 1))
    refine congrArg (V c main_v7) (funext fun a => Fin.ext ?_)
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The blocks cover the array: row `r` is in the block of point `r / 5000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto0 ⟨(i 0).val / 5000, by omega⟩
  have q0 : win0_3.index t (0 : Fin 2) = (i 0).val / 5000 := ht
  obtain ⟨-, -, -, -, -, -, e6, -⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- Region 0's output array after the region. -/
theorem array0 (c : Dev nD) : (dat0 (F := Ideal) V c).arrAt 3 cfg0.N
    = scaleMm (M := 100000) (K := 128) (N := 128) (V c main_arg0) (V c main_v7) (V c main_arg3) :=
  (dat0 V c).arrAt_eq_of_cover 3 _ (fun t _ => flushed0 V c t) cover0

/-! ## Region 1: the aggregated rows scaled by the in-degree factors, plus the first bias, cut at zero -/

/-- Region 1's index maps over its points: the aggregated rows, the factors and the output move together down the
    rows, the bias row stays, and no window moves along the columns. -/
theorem idx1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every block of rows is some point's. -/
theorem onto1 : ∀ q : Fin 20, ∃ t : Fin cfg1.N, win1_3.index t (0 : Fin 2) = q.val :=
  (by decide +kernel : ∀ q : Fin 20, ∃ t : Fin grid1.N, win1_3.index t (0 : Fin 2) = q.val)

/-- What point `t` writes back is block `t` of the stage of the whole entry arrays. -/
theorem flushed1 (c : Dev nD) (t : Fin cfg1.N) :
    (dat1 (F := Ideal) V c).flushed 3 t = ((cfg1.win 3).blk t).view.read (Elt Ideal)
      (relu (scaleBias (M := 100000) (N := 128) (V c main_v26) (V c main_v15) (V c main_v27))) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  rw [pay1]
  obtain ⟨e0, e1, e2, e3, e4, e5, e6, e7⟩ := idx1 t
  funext j
  show relu (scaleBias (M := 5000) (N := 128) (iblk1 V c 0 t) (iblk1 V c 1 t) (iblk1 V c 2 t)) j
    = relu (scaleBias (M := 100000) (N := 128) (V c main_v26) (V c main_v15) (V c main_v27)) (((cfg1.win 3).blk t).view.emb j)
  refine congrArg (fun z : EReal => max z 0) ?_
  refine scaleBias_eq_of_entry (iblk1 V c 0 t) (iblk1 V c 1 t) (iblk1 V c 2 t) (V c main_v26) (V c main_v15) (V c main_v27)
    j (((cfg1.win 3).blk t).view.emb j) ?_ ?_ ?_ ?_
  · funext y
    show V c main_v27 (((cfg1.win 2).blk t).view.emb y) = V c main_v27 y
    refine congrArg (V c main_v27) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · show (j 1).val = win1_3.index t (1 : Fin 2) * 128 + 1 * (j 1).val
    omega
  · show V c main_v26 (((cfg1.win 0).blk t).view.emb j) = V c main_v26 (((cfg1.win 3).blk t).view.emb j)
    refine congrArg (V c main_v26) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · show V c main_v15 (((cfg1.win 1).blk t).view.emb (ix2 (n0 := 5000) (j 0) (0 : Fin 1))) = V c main_v15 (ix2 (n0 := 100000) ((((cfg1.win 3).blk t).view.emb j) 0) (0 : Fin 1))
    refine congrArg (V c main_v15) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v28).slice (win1_3.rect t)).set ↔ _
  rw [View.set_slice_whole, Rect.mem_set_unit]
  exact Iff.rfl

/-- The blocks cover the array: row `r` is in the block of point `r / 5000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := onto1 ⟨(i 0).val / 5000, by omega⟩
  have q0 : win1_3.index t (0 : Fin 2) = (i 0).val / 5000 := ht
  obtain ⟨-, -, -, -, -, -, e6, -⟩ := idx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- Region 1's output array after the region. -/
theorem array1 (c : Dev nD) : (dat1 (F := Ideal) V c).arrAt 3 cfg1.N
    = relu (scaleBias (M := 100000) (N := 128) (V c main_v26) (V c main_v15) (V c main_v27)) :=
  (dat1 V c).arrAt_eq_of_cover 3 _ (fun t _ => flushed1 V c t) cover1

/-! ## Region 2: the hidden rows scaled by the out-degree factors, times the second layer's weights -/

/-- Region 2's index maps over its points, as region 0's. -/
theorem idx2 : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every block of rows is some point's. -/
theorem onto2 : ∀ q : Fin 20, ∃ t : Fin cfg2.N, win2_3.index t (0 : Fin 2) = q.val :=
  (by decide +kernel : ∀ q : Fin 20, ∃ t : Fin grid2.N, win2_3.index t (0 : Fin 2) = q.val)

/-- What point `t` writes back is block `t` of the stage of the whole entry arrays. -/
theorem flushed2 (c : Dev nD) (t : Fin cfg2.N) :
    (dat2 (F := Ideal) V c).flushed 3 t = ((cfg2.win 3).blk t).view.read (Elt Ideal)
      (scaleMm (M := 100000) (K := 128) (N := 128) (V c main_v28) (V c main_v7) (V c main_arg5)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128x128) hz]
  rw [pay2]
  obtain ⟨e0, e1, e2, e3, e4, e5, e6, e7⟩ := idx2 t
  funext j
  show scaleMm (M := 5000) (K := 128) (N := 128) (iblk2 V c 0 t) (iblk2 V c 1 t) (iblk2 V c 2 t) j
    = scaleMm (M := 100000) (K := 128) (N := 128) (V c main_v28) (V c main_v7) (V c main_arg5) (((cfg2.win 3).blk t).view.emb j)
  refine scaleMm_eq_of_row (iblk2 V c 0 t) (iblk2 V c 1 t) (iblk2 V c 2 t) (V c main_v28) (V c main_v7) (V c main_arg5)
    j (((cfg2.win 3).blk t).view.emb j) ?_ ?_ (fun k => ?_) ?_
  · funext y
    show V c main_arg5 (((cfg2.win 2).blk t).view.emb y) = V c main_arg5 y
    refine congrArg (V c main_arg5) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · show (j 1).val = win2_3.index t (1 : Fin 2) * 128 + 1 * (j 1).val
    omega
  · show V c main_v28 (((cfg2.win 0).blk t).view.emb (ix2 (n0 := 5000) (j 0) k)) = V c main_v28 (ix2 (n0 := 100000) ((((cfg2.win 3).blk t).view.emb j) 0) k)
    refine congrArg (V c main_v28) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · show V c main_v7 (((cfg2.win 1).blk t).view.emb (ix2 (n0 := 5000) (j 0) (0 : Fin 1))) = V c main_v7 (ix2 (n0 := 100000) ((((cfg2.win 3).blk t).view.emb j) 0) (0 : Fin 1))
    refine congrArg (V c main_v7) (funext fun a => Fin.ext ?_)
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v29).slice (win2_3.rect t)).set ↔ _
  rw [View.set_slice_whole, Rect.mem_set_unit]
  exact Iff.rfl

/-- The blocks cover the array: row `r` is in the block of point `r / 5000`. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := onto2 ⟨(i 0).val / 5000, by omega⟩
  have q0 : win2_3.index t (0 : Fin 2) = (i 0).val / 5000 := ht
  obtain ⟨-, -, -, -, -, -, e6, -⟩ := idx2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- Region 2's output array after the region. -/
theorem array2 (c : Dev nD) : (dat2 (F := Ideal) V c).arrAt 3 cfg2.N
    = scaleMm (M := 100000) (K := 128) (N := 128) (V c main_v28) (V c main_v7) (V c main_arg5) :=
  (dat2 V c).arrAt_eq_of_cover 3 _ (fun t _ => flushed2 V c t) cover2

/-! ## Region 3: the aggregated rows scaled by the in-degree factors, plus the second bias -/

/-- Region 3's index maps over its points: the aggregated rows, the factors and the output move together down the
    rows, the bias row stays, and no window moves along the columns. -/
theorem idx3 : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 19 :=
  (by decide +kernel : ∀ t : Fin grid3.N, _)

/-- Every block of rows is some point's. -/
theorem onto3 : ∀ q : Fin 20, ∃ t : Fin cfg3.N, win3_3.index t (0 : Fin 2) = q.val :=
  (by decide +kernel : ∀ q : Fin 20, ∃ t : Fin grid3.N, win3_3.index t (0 : Fin 2) = q.val)

/-- What point `t` writes back is block `t` of the stage of the whole entry arrays. -/
theorem flushed3 (c : Dev nD) (t : Fin cfg3.N) :
    (dat3 (F := Ideal) V c).flushed 3 t = ((cfg3.win 3).blk t).view.read (Elt Ideal)
      (scaleBias (M := 100000) (N := 128) (V c main_v39) (V c main_v15) (V c main_v40)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S1x128) hz]
  rw [pay3]
  obtain ⟨e0, e1, e2, e3, e4, e5, e6, e7⟩ := idx3 t
  funext j
  show scaleBias (M := 5000) (N := 128) (iblk3 V c 0 t) (iblk3 V c 1 t) (iblk3 V c 2 t) j
    = scaleBias (M := 100000) (N := 128) (V c main_v39) (V c main_v15) (V c main_v40) (((cfg3.win 3).blk t).view.emb j)
  refine scaleBias_eq_of_entry (iblk3 V c 0 t) (iblk3 V c 1 t) (iblk3 V c 2 t) (V c main_v39) (V c main_v15) (V c main_v40)
    j (((cfg3.win 3).blk t).view.emb j) ?_ ?_ ?_ ?_
  · funext y
    show V c main_v40 (((cfg3.win 2).blk t).view.emb y) = V c main_v40 y
    refine congrArg (V c main_v40) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · show (j 1).val = win3_3.index t (1 : Fin 2) * 128 + 1 * (j 1).val
    omega
  · show V c main_v39 (((cfg3.win 0).blk t).view.emb j) = V c main_v39 (((cfg3.win 3).blk t).view.emb j)
    refine congrArg (V c main_v39) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  · show V c main_v15 (((cfg3.win 1).blk t).view.emb (ix2 (n0 := 5000) (j 0) (0 : Fin 1))) = V c main_v15 (ix2 (n0 := 100000) ((((cfg3.win 3).blk t).view.emb j) 0) (0 : Fin 1))
    refine congrArg (V c main_v15) (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega

/-- An index of the output array is in point `t`'s block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v41).slice (win3_3.rect t)).set ↔ _
  rw [View.set_slice_whole, Rect.mem_set_unit]
  exact Iff.rfl

/-- The blocks cover the array: row `r` is in the block of point `r / 5000`. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := onto3 ⟨(i 0).val / 5000, by omega⟩
  have q0 : win3_3.index t (0 : Fin 2) = (i 0).val / 5000 := ht
  obtain ⟨-, -, -, -, -, -, e6, -⟩ := idx3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- Region 3's output array after the region. -/
theorem array3 (c : Dev nD) : (dat3 (F := Ideal) V c).arrAt 3 cfg3.N
    = scaleBias (M := 100000) (N := 128) (V c main_v39) (V c main_v15) (V c main_v40) :=
  (dat3 V c).arrAt_eq_of_cover 3 _ (fun t _ => flushed3 V c t) cover3

/-! ## Region 4: the residual and the head -/

/-- Region 4's index maps over its points: the hidden rows, the input rows and the output move together down the
    rows, the two matrices and the bias row stay, and no window moves along the columns. -/
theorem idx4 : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) ≤ 19 :=
  (by decide +kernel : ∀ t : Fin grid4.N, _)

/-- Every block of rows is some point's. -/
theorem onto4 : ∀ q : Fin 20, ∃ t : Fin cfg4.N, win4_5.index t (0 : Fin 2) = q.val :=
  (by decide +kernel : ∀ q : Fin 20, ∃ t : Fin grid4.N, win4_5.index t (0 : Fin 2) = q.val)

/-- What point `t` writes back is block `t` of the stage of the whole entry arrays. -/
theorem flushed4 (c : Dev nD) (t : Fin cfg4.N) :
    (dat4 (F := Ideal) V c).flushed 5 t = ((cfg4.win 5).blk t).view.read (Elt Ideal)
      (head (M := 100000) (K := 128) (N := 2) (V c main_v41) (V c main_arg0) (V c main_arg7) (V c main_arg8) (V c main_v42)) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x128) hz, View.ld_unit_zero (S := S128x2) hz, View.ld_unit_zero (S := S1x2) hz]
  rw [pay4]
  obtain ⟨e0, e1, e2, e3, e4, e5, e8, e9, e10, e11, e6, e7⟩ := idx4 t
  funext j
  show head (M := 5000) (K := 128) (N := 2) (iblk4 V c 0 t) (iblk4 V c 1 t) (iblk4 V c 2 t) (iblk4 V c 3 t) (iblk4 V c 4 t) j
    = head (M := 100000) (K := 128) (N := 2) (V c main_v41) (V c main_arg0) (V c main_arg7) (V c main_arg8) (V c main_v42) (((cfg4.win 5).blk t).view.emb j)
  refine head_eq_of_row (iblk4 V c 0 t) (iblk4 V c 1 t) (iblk4 V c 2 t) (iblk4 V c 3 t) (iblk4 V c 4 t)
    (V c main_v41) (V c main_arg0) (V c main_arg7) (V c main_arg8) (V c main_v42)
    j (((cfg4.win 5).blk t).view.emb j) ?_ ?_ ?_ ?_ (fun k => ?_) (fun k => ?_)
  · funext y
    show V c main_arg7 (((cfg4.win 2).blk t).view.emb y) = V c main_arg7 y
    refine congrArg (V c main_arg7) (funext fun a => Fin.ext ?_)
    match a with
    | ⟨0, _⟩ => show win4_2.index t (0 : Fin 2) * 128 + 1 * (y 0).val = (y 0).val; omega
    | ⟨1, _⟩ => show win4_2.index t (1 : Fin 2) * 128 + 1 * (y 1).val = (y 1).val; omega
  · funext y
    show V c main_arg8 (((cfg4.win 3).blk t).view.emb y) = V c main_arg8 y
    refine congrArg (V c main_arg8) (funext fun a => Fin.ext ?_)
    match a with
    | ⟨0, _⟩ => show win4_3.index t (0 : Fin 2) * 128 + 1 * (y 0).val = (y 0).val; omega
    | ⟨1, _⟩ => show win4_3.index t (1 : Fin 2) * 2 + 1 * (y 1).val = (y 1).val; omega
  · funext y
    show V c main_v42 (((cfg4.win 4).blk t).view.emb y) = V c main_v42 y
    refine congrArg (V c main_v42) (funext fun a => Fin.ext ?_)
    match a with
    | ⟨0, _⟩ => show win4_4.index t (0 : Fin 2) * 1 + 1 * (y 0).val = (y 0).val; omega
    | ⟨1, _⟩ => show win4_4.index t (1 : Fin 2) * 2 + 1 * (y 1).val = (y 1).val; omega
  · show (j 1).val = win4_5.index t (1 : Fin 2) * 2 + 1 * (j 1).val
    omega
  · show V c main_v41 (((cfg4.win 0).blk t).view.emb (ix2 (n0 := 5000) (j 0) k)) = V c main_v41 (ix2 (n0 := 100000) ((((cfg4.win 5).blk t).view.emb j) 0) k)
    refine congrArg (V c main_v41) (funext fun a => Fin.ext ?_)
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 128 + 1 * k.val = k.val; omega
  · show V c main_arg0 (((cfg4.win 1).blk t).view.emb (ix2 (n0 := 5000) (j 0) k)) = V c main_arg0 (ix2 (n0 := 100000) ((((cfg4.win 5).blk t).view.emb j) 0) k)
    refine congrArg (V c main_arg0) (funext fun a => Fin.ext ?_)
    match a with
    | ⟨0, _⟩ => show win4_1.index t (0 : Fin 2) * 5000 + 1 * (j 0).val = win4_5.index t (0 : Fin 2) * 5000 + 1 * (j 0).val; omega
    | ⟨1, _⟩ => show win4_1.index t (1 : Fin 2) * 128 + 1 * k.val = k.val; omega

/-- An index of the output array is in point `t`'s block iff each coordinate is in the block's range on its axis. -/
theorem mem_blk4 (t : Fin cfg4.N) (i : S100000x2.Idx) :
    i ∈ ((cfg4.win 5).blk t).view.set ↔ ∀ a : Fin 2, win4_5.index t a * S5000x2.size a ≤ (i a).val ∧ (i a).val < win4_5.index t a * S5000x2.size a + S5000x2.size a := by
  show i ∈ ((View.whole main_v43).slice (win4_5.rect t)).set ↔ _
  rw [View.set_slice_whole, Rect.mem_set_unit]
  exact Iff.rfl

/-- The blocks cover the array: row `r` is in the block of point `r / 5000`. -/
theorem cover4 (i : S100000x2.Idx) : ∃ t : Fin cfg4.N, (cfg4.win 5).flush t = true ∧ i ∈ ((cfg4.win 5).blk t).view.set := by
  have hi0 : (i 0).val < 100000 := (i 0).isLt
  have hi1 : (i 1).val < 2 := (i 1).isLt
  obtain ⟨t, ht⟩ := onto4 ⟨(i 0).val / 5000, by omega⟩
  have q0 : win4_5.index t (0 : Fin 2) = (i 0).val / 5000 := ht
  obtain ⟨-, -, -, -, -, -, -, -, -, -, e6, -⟩ := idx4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 2 ≤ (i 1).val ∧ (i 1).val < win4_5.index t (1 : Fin 2) * 2 + 2; omega

/-- Region 4's output array after the region. -/
theorem array4 (c : Dev nD) : (dat4 (F := Ideal) V c).arrAt 5 cfg4.N
    = head (M := 100000) (K := 128) (N := 2) (V c main_v41) (V c main_arg0) (V c main_arg7) (V c main_arg8) (V c main_v42) :=
  (dat4 V c).arrAt_eq_of_cover 5 _ (fun t _ => flushed4 V c t) cover4

end Cert.KernelIdeal.Regions

end
-- ==== Proof.Net.lean ====
/-
  The network as ONE function of its ten argument arrays, over the extended reals.

  With `d_out` and `d_in` the clamped out- and in-degree of every node raised to the power −1/2 (`degFactor` of the
  edges' source and destination indices), and `aggregate P` the sum, into every destination node, of the rows of `P`
  at the sources of its incoming edges (a row gather by source, then an accumulating scatter by destination):

      h₁ = max (aggregate ((x ⊙ d_out) · W₁) ⊙ d_in + b₁, 0)
      h₂ =      aggregate ((h₁ ⊙ d_out) · W₂) ⊙ d_in + b₂
      out = (h₂ + x · W_res) · W_head + b_head

  where `⊙` scales row `p` by the `p`-th factor. The dense steps are the stages of module LibScaledConv at 100000
  rows; the degree factors and the aggregation are spelt with the host's own operations and are never opened: both
  programs apply the very same ones, so only the arrays going into them have to be shown equal.
-/
import proofs.«113129_j30442728194391_1_alg».proof.Proof.Gen.KernelIdeal
import proofs.«113129_j30442728194391_1_alg».proof.Proof.LibScaledConv

noncomputable section

namespace Cert.KernelIdeal.Net

open Idealize.ShloMosaic Cert.KernelIdeal Cert.KernelIdeal.Facts₀ Cert.KernelIdeal.Facts Cert.ScaledConv Cert.DenseLib

/-- The degree factor of every node: the number of edges whose index (source, or destination) is that node — ones
    scattered and summed —, clamped below at one, to the power −1/2. -/
def degFactor (idx : IVec S1600000 32) : FVec Ideal S100000 .f32 :=
  Host.powf
    (maximumf
      (broadcastInDim S100000 ![] bcast_S_S100000 (id (constant (F := Ideal) S_ .f32 0x3F800000#32)))
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))
    (broadcastInDim S100000 ![] bcast_S_S100000 (constant (F := Ideal) S_ .f32 0xBF000000#32))

/-- An index below zero counts from the end: 100000 is added to it. -/
def fromEnd (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- Every edge takes the row of `P` at its source; the rows are summed into the edges' destinations. -/
def aggregate (P : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 P
      (broadcastInDim S1600000x1 ![0] bcast_S1600000_S1600000x1_0 (fromEnd src)))

/-- A vector of node factors as one column. -/
abbrev col (v : FVec Ideal S100000 .f32) : FVec Ideal S100000x1 .f32 := shapeCast S100000x1 v shapeCasts_S100000_S100000x1
/-- A bias vector as one row. -/
abbrev row (b : FVec Ideal S128 .f32) : FVec Ideal S1x128 .f32 := shapeCast S1x128 b shapeCasts_S128_S1x128
/-- The head's bias vector as one row. -/
abbrev row2 (b : FVec Ideal S2 .f32) : FVec Ideal S1x2 .f32 := shapeCast S1x2 b shapeCasts_S2_S1x2

/-- The transformed rows before aggregation: the rows scaled by the out-degree factors, times the weights. -/
def pre (x : FVec Ideal S100000x128 .f32) (src : IVec S1600000 32) (W : FVec Ideal S128x128 .f32) : FVec Ideal S100000x128 .f32 :=
  scaleMm (M := 100000) (K := 128) (N := 128) x (col (degFactor src)) W

/-- A convolution before its activation: aggregate, scale by the in-degree factors, add the bias. -/
def conv (x : FVec Ideal S100000x128 .f32) (src dst : IVec S1600000 32) (W : FVec Ideal S128x128 .f32) (b : FVec Ideal S128 .f32) :
    FVec Ideal S100000x128 .f32 :=
  scaleBias (M := 100000) (N := 128) (aggregate (pre x src W) src dst) (col (degFactor dst)) (row b)

/-- The first layer: a convolution cut at zero. -/
def layer1 (x : FVec Ideal S100000x128 .f32) (src dst : IVec S1600000 32) (W : FVec Ideal S128x128 .f32) (b : FVec Ideal S128 .f32) :
    FVec Ideal S100000x128 .f32 := relu (conv x src dst W b)

/-- The whole network. -/
def net (x : FVec Ideal S100000x128 .f32) (src dst : IVec S1600000 32)
    (W1 : FVec Ideal S128x128 .f32) (b1 : FVec Ideal S128 .f32) (W2 : FVec Ideal S128x128 .f32) (b2 : FVec Ideal S128 .f32)
    (Wr : FVec Ideal S128x128 .f32) (Wm : FVec Ideal S128x2 .f32) (bm : FVec Ideal S2 .f32) : FVec Ideal S100000x2 .f32 :=
  head (M := 100000) (K := 128) (N := 2) (conv (layer1 x src dst W1 b1) src dst W2 b2) x Wr Wm (row2 bm)

end Cert.KernelIdeal.Net

end
-- ==== Proof.Through.lean ====
/-
  The kernel's result array, read off @main's thirteen segments one boundary at a time.

  @main alternates stretches of host operations with the five regions. At each boundary the TensorCore's buffers
  hold: after a host stretch, what its operations compute from the buffers before it (and every buffer they do not
  write as it was); after a region, its output array at the dense stage of its entry arrays (module Regions), its
  input arrays and every other buffer as they were. Reading, boundary by boundary, only the buffers the next consumer
  reads:

    launch ─host→ the two columns of degree factors; the arguments untouched
           ─region 0→ the first layer's transformed rows
           ─host→ their aggregate; the first bias as a row
           ─region 1→ the first layer's output ─region 2→ the second layer's transformed rows
           ─host→ their aggregate; the second bias as a row
           ─region 3→ the second convolution ─host→ the head's bias as a row ─region 4→ the result:

  the network of module Net applied to the launch contents of the ten arguments.
-/
import proofs.«113129_j30442728194391_1_alg».proof.Proof.Regions
import proofs.«113129_j30442728194391_1_alg».proof.Proof.Net
import Idealize.ShloMosaic.Lib.StableHlo.Run

set_option maxRecDepth 16384

noncomputable section

namespace Cert.KernelIdeal.Through

open Idealize.ShloMosaic Idealize.ShloMosaic.TcCoe Idealize.SL.Sem Idealize.ShloMosaic.StableHlo
open Cert.KernelIdeal Cert.KernelIdeal.Facts₀ Cert.KernelIdeal.Facts Cert.KernelIdeal.Gen Cert.KernelIdeal.Regions Cert.KernelIdeal.Net
open Cert.ScaledConv Cert.DenseLib

variable (m : (ℓ : Loc nD τ sig) → Buf (Elt Ideal) ℓ) (ρ : Dev nD → PrngReg) (c : Dev nD)

/-! ## Region 0's entry: the host operations before it compute the degree factors and write no argument -/

/-- The references the first stretch (the out-degree counts) writes. -/
abbrev hostOps0_W : List (Ref sig .tc) := [main_cst, main_v0, main_cst_0, main_v1, main_v2, main_v3, main_cst_1]
theorem hostOps0_writes : (hostOps0 : List (HloOp τ sig (Elt Ideal))).Forall fun op => op.writes ⊆ (hostOps0_W.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references the first clamp writes. -/
abbrev hostOps0_1_W : List (Ref sig .tc) := [main_call0_v0, main_call0_v1, main_v4]
theorem hostOps0_1_writes : (hostOps0_1 : List (HloOp τ sig (Elt Ideal))).Forall fun op => op.writes ⊆ (hostOps0_1_W.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references the third stretch (the out-degree factors as a column, the in-degree counts) writes. -/
abbrev hostOps0_2_W : List (Ref sig .tc) := [main_cst_2, main_v5, main_v6, main_v7, main_cst_3, main_v8, main_cst_4, main_v9, main_v10, main_v11, main_cst_5]
theorem hostOps0_2_writes : (hostOps0_2 : List (HloOp τ sig (Elt Ideal))).Forall fun op => op.writes ⊆ (hostOps0_2_W.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references the second clamp writes. -/
abbrev hostOps0_3_W : List (Ref sig .tc) := [main_call1_v0, main_call1_v1, main_v12]
theorem hostOps0_3_writes : (hostOps0_3 : List (HloOp τ sig (Elt Ideal))).Forall fun op => op.writes ⊆ (hostOps0_3_W.map (Proc.devRef (τ := τ) .tc)).toFinset := by
  simp only [hostOps0_3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references the fifth stretch (the in-degree factors as a column) writes. -/
abbrev hostOps0_4_W : List (Ref sig .tc) := [main_cst_6, main_v13, main_v14, main_v15]
theorem hostOps0_4_writes : (hostOps0_4 : List (HloOp τ sig (Elt Ideal))).Forall fun op => op.writes ⊆ (hostOps0_4_W.map (Proc.devRef (τ := τ) .tc)).toFinset := by
  simp only [hostOps0_4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer none of the five stretches before region 0 writes is, at region 0's entry, as launched. -/
theorem W5_of_launch (b : Ref sig .tc) (h0 : b ∉ hostOps0_W) (h1 : b ∉ hostOps0_1_W) (h2 : b ∉ hostOps0_2_W)
    (h3 : b ∉ hostOps0_3_W) (h4 : b ∉ hostOps0_4_W) : W5 m ρ c (Proc.devRef .tc b) = W0 m ρ c (Proc.devRef .tc b) :=
  (StableHlo.after_of_writes_sub hostOps0_4 _ hostOps0_4_writes h4).trans
    ((StableHlo.after_of_writes_sub hostOps0_3 _ hostOps0_3_writes h3).trans
      ((StableHlo.after_of_writes_sub hostOps0_2 _ hostOps0_2_writes h2).trans
        ((StableHlo.after_of_writes_sub hostOps0_1 _ hostOps0_1_writes h1).trans
          (StableHlo.after_of_writes_sub hostOps0 _ hostOps0_writes h0))))

theorem W5_arg0 : W5 m ρ c (Proc.devRef .tc main_arg0) = (m ((c : Thread nD τ).loc main_arg0)) :=
  (W5_of_launch m ρ c main_arg0 (by decide) (by decide) (by decide) (by decide) (by decide)).trans rfl
theorem W5_arg1 : W5 m ρ c (Proc.devRef .tc main_arg1) = (m ((c : Thread nD τ).loc main_arg1)) :=
  (W5_of_launch m ρ c main_arg1 (by decide) (by decide) (by decide) (by decide) (by decide)).trans rfl
theorem W5_arg2 : W5 m ρ c (Proc.devRef .tc main_arg2) = (m ((c : Thread nD τ).loc main_arg2)) :=
  (W5_of_launch m ρ c main_arg2 (by decide) (by decide) (by decide) (by decide) (by decide)).trans rfl
theorem W5_arg3 : W5 m ρ c (Proc.devRef .tc main_arg3) = (m ((c : Thread nD τ).loc main_arg3)) :=
  (W5_of_launch m ρ c main_arg3 (by decide) (by decide) (by decide) (by decide) (by decide)).trans rfl
theorem W5_arg4 : W5 m ρ c (Proc.devRef .tc main_arg4) = (m ((c : Thread nD τ).loc main_arg4)) :=
  (W5_of_launch m ρ c main_arg4 (by decide) (by decide) (by decide) (by decide) (by decide)).trans rfl
theorem W5_arg5 : W5 m ρ c (Proc.devRef .tc main_arg5) = (m ((c : Thread nD τ).loc main_arg5)) :=
  (W5_of_launch m ρ c main_arg5 (by decide) (by decide) (by decide) (by decide) (by decide)).trans rfl
theorem W5_arg6 : W5 m ρ c (Proc.devRef .tc main_arg6) = (m ((c : Thread nD τ).loc main_arg6)) :=
  (W5_of_launch m ρ c main_arg6 (by decide) (by decide) (by decide) (by decide) (by decide)).trans rfl
theorem W5_arg7 : W5 m ρ c (Proc.devRef .tc main_arg7) = (m ((c : Thread nD τ).loc main_arg7)) :=
  (W5_of_launch m ρ c main_arg7 (by decide) (by decide) (by decide) (by decide) (by decide)).trans rfl
theorem W5_arg8 : W5 m ρ c (Proc.devRef .tc main_arg8) = (m ((c : Thread nD τ).loc main_arg8)) :=
  (W5_of_launch m ρ c main_arg8 (by decide) (by decide) (by decide) (by decide) (by decide)).trans rfl
theorem W5_arg9 : W5 m ρ c (Proc.devRef .tc main_arg9) = (m ((c : Thread nD τ).loc main_arg9)) :=
  (W5_of_launch m ρ c main_arg9 (by decide) (by decide) (by decide) (by decide) (by decide)).trans rfl

/-! ### The two columns of degree factors, one stretch at a time, from ANY contents `V` before the stretch -/

/-- The first stretch counts, per node, the edges leaving it: ones scattered by the source indices and summed. -/
theorem counts_out (V : Valuation τ sig (Elt Ideal)) : StableHlo.after hostOps0 V (Proc.devRef .tc main_v3) = (Host.scatterAdd scatter_S100000_S1600000x1_S1600000_n_0_0_1 (broadcastInDim S100000 ![] Facts₀.bcast_S_S100000 (constant (F := Ideal) S_ .f32 0x00000000#32))
        (broadcastInDim S1600000x1 ![0] Facts₀.bcast_S1600000_S1600000x1_0 (V (Proc.devRef .tc main_arg1)))
        (broadcastInDim S1600000 ![] Facts₀.bcast_S_S1600000 (constant (F := Ideal) S_ .f32 0x3F800000#32))) := by
  dsimp only [hostOps0]
  after_results_simp <;> rfl
/-- It also leaves the clamp's bound, one. -/
theorem one_out (V : Valuation τ sig (Elt Ideal)) : StableHlo.after hostOps0 V (Proc.devRef .tc main_cst_1) = (constant (F := Ideal) S_ .f32 0x3F800000#32) := by
  dsimp only [hostOps0]
  after_results_simp <;> rfl
/-- The first clamp: the larger of the bound and the count. -/
theorem clamp_out (V : Valuation τ sig (Elt Ideal)) : StableHlo.after hostOps0_1 V (Proc.devRef .tc main_v4) = maximumf (F := Ideal) (φ := .f32) (broadcastInDim S100000 ![] Facts₀.bcast_S_S100000 (id (V (Proc.devRef .tc main_cst_1)))) (V (Proc.devRef .tc main_v3)) := by
  dsimp only [hostOps0_1]
  after_results_simp <;> rfl
/-- The third stretch raises the clamped counts to the power −1/2 and recasts them as a column. -/
theorem factor_out (V : Valuation τ sig (Elt Ideal)) : StableHlo.after hostOps0_2 V (Proc.devRef .tc main_v7) = col (Host.powf (V (Proc.devRef .tc main_v4)) (broadcastInDim S100000 ![] Facts₀.bcast_S_S100000 (constant (F := Ideal) S_ .f32 0xBF000000#32))) := by
  dsimp only [hostOps0_2]
  after_results_simp <;> rfl
/-- It also counts, per node, the edges entering it. -/
theorem counts_in (V : Valuation τ sig (Elt Ideal)) : StableHlo.after hostOps0_2 V (Proc.devRef .tc main_v11) = (Host.scatterAdd scatter_S100000_S1600000x1_S1600000_n_0_0_1 (broadcastInDim S100000 ![] Facts₀.bcast_S_S100000 (constant (F := Ideal) S_ .f32 0x00000000#32))
        (broadcastInDim S1600000x1 ![0] Facts₀.bcast_S1600000_S1600000x1_0 (V (Proc.devRef .tc main_arg2)))
        (broadcastInDim S1600000 ![] Facts₀.bcast_S_S1600000 (constant (F := Ideal) S_ .f32 0x3F800000#32))) := by
  dsimp only [hostOps0_2]
  after_results_simp <;> rfl
/-- And leaves the second clamp's bound. -/
theorem one_in (V : Valuation τ sig (Elt Ideal)) : StableHlo.after hostOps0_2 V (Proc.devRef .tc main_cst_5) = (constant (F := Ideal) S_ .f32 0x3F800000#32) := by
  dsimp only [hostOps0_2]
  after_results_simp <;> rfl
/-- The second clamp. -/
theorem clamp_in (V : Valuation τ sig (Elt Ideal)) : StableHlo.after hostOps0_3 V (Proc.devRef .tc main_v12) = maximumf (F := Ideal) (φ := .f32) (broadcastInDim S100000 ![] Facts₀.bcast_S_S100000 (id (V (Proc.devRef .tc main_cst_5)))) (V (Proc.devRef .tc main_v11)) := by
  dsimp only [hostOps0_3]
  after_results_simp <;> rfl
/-- The fifth stretch: the power −1/2, as a column. -/
theorem factor_in (V : Valuation τ sig (Elt Ideal)) : StableHlo.after hostOps0_4 V (Proc.devRef .tc main_v15) = col (Host.powf (V (Proc.devRef .tc main_v12)) (broadcastInDim S100000 ![] Facts₀.bcast_S_S100000 (constant (F := Ideal) S_ .f32 0xBF000000#32))) := by
  dsimp only [hostOps0_4]
  after_results_simp <;> rfl

/-- The out-degree factors as a column at region 0's entry. -/
theorem W5_v7 : W5 m ρ c (Proc.devRef .tc main_v7) = col (degFactor (m ((c : Thread nD τ).loc main_arg1))) := by
  refine (StableHlo.after_of_writes_sub hostOps0_4 _ hostOps0_4_writes (by decide)).trans ?_
  refine (StableHlo.after_of_writes_sub hostOps0_3 _ hostOps0_3_writes (by decide)).trans ?_
  refine (factor_out (W2 m ρ c)).trans ?_
  rw [show W2 m ρ c (Proc.devRef .tc main_v4) = _ from clamp_out (W1 m ρ c),
    show W1 m ρ c (Proc.devRef .tc main_cst_1) = _ from one_out (W0 m ρ c),
    show W1 m ρ c (Proc.devRef .tc main_v3) = _ from counts_out (W0 m ρ c)]
  rfl

/-- The in-degree factors as a column at region 0's entry. -/
theorem W5_v15 : W5 m ρ c (Proc.devRef .tc main_v15) = col (degFactor (m ((c : Thread nD τ).loc main_arg2))) := by
  refine (factor_in (W4 m ρ c)).trans ?_
  rw [show W4 m ρ c (Proc.devRef .tc main_v12) = _ from clamp_in (W3 m ρ c),
    show W3 m ρ c (Proc.devRef .tc main_cst_5) = _ from one_in (W2 m ρ c),
    show W3 m ρ c (Proc.devRef .tc main_v11) = _ from counts_in (W2 m ρ c),
    show W2 m ρ c (Proc.devRef .tc main_arg2) = W0 m ρ c (Proc.devRef .tc main_arg2) from
      (StableHlo.after_of_writes_sub hostOps0_1 _ hostOps0_1_writes (by decide)).trans
        (StableHlo.after_of_writes_sub hostOps0 _ hostOps0_writes (by decide))]
  rfl

/-! ## What a region and a host stretch leave alone -/

/-- A region's input array is after the region what it was before it. -/
theorem W6_in (w : Fin cfg0.W) (h : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w h _).trans (A_eq0 (V5 m ρ) c w))
theorem W8_in (w : Fin cfg1.W) (h : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w h _).trans (A_eq1 (V7 m ρ) c w))

/-- The references the host stretch between regions 0 and 1 writes. -/
abbrev hostOps1_W : List (Ref sig .tc) :=
  [main_c, main_v17, main_v18, main_c_7, main_v19, main_v20, main_v21, main_v22, main_v23, main_cst_8, main_v24, main_v25, main_v26, main_v27]
theorem hostOps1_writes : (hostOps1 : List (HloOp τ sig (Elt Ideal))).Forall fun op => op.writes ⊆ (hostOps1_W.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references the host stretch between regions 2 and 3 writes. -/
abbrev hostOps3_W : List (Ref sig .tc) :=
  [main_c_9, main_v30, main_v31, main_c_10, main_v32, main_v33, main_v34, main_v35, main_v36, main_cst_11, main_v37, main_v38, main_v39, main_v40]
theorem hostOps3_writes : (hostOps3 : List (HloOp τ sig (Elt Ideal))).Forall fun op => op.writes ⊆ (hostOps3_W.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The one reference the host stretch before region 4 writes. -/
abbrev hostOps4_W : List (Ref sig .tc) := [main_v42]
theorem hostOps4_writes : (hostOps4 : List (HloOp τ sig (Elt Ideal))).Forall fun op => op.writes ⊆ (hostOps4_W.map (Proc.devRef (τ := τ) .tc)).toFinset := by
  simp only [hostOps4, List.Forall, StableHlo.reshape_writes, Finset.singleton_subset_iff, List.mem_toFinset]
  exact List.mem_map_of_mem (by decide)

/-- From region 0's exit to region 2's exit, a buffer that the host stretch between does not write and that is no
    array of regions 1 and 2 keeps its contents. -/
theorem W9_of_W6 (b : Ref sig .tc) (h1 : b ∉ hostOps1_W) (h2 : ∀ w, Pipeline.arrRef spec1 w ≠ b) (h3 : ∀ w, Pipeline.arrRef spec2 w ≠ b) :
    W9 m ρ c (Proc.devRef .tc b) = W6 m ρ c (Proc.devRef .tc b) :=
  (W9_of_ne m ρ c b h3).trans ((W8_of_ne m ρ c b h2).trans (StableHlo.after_of_writes_sub hostOps1 _ hostOps1_writes h1))
/-- From region 2's exit to region 4's entry likewise. -/
theorem W12_of_W9 (b : Ref sig .tc) (h3 : b ∉ hostOps3_W) (h4 : ∀ w, Pipeline.arrRef spec3 w ≠ b) (h5 : b ∉ hostOps4_W) :
    W12 m ρ c (Proc.devRef .tc b) = W9 m ρ c (Proc.devRef .tc b) :=
  (StableHlo.after_of_writes_sub hostOps4 _ hostOps4_writes h5).trans
    ((W11_of_ne m ρ c b h4).trans (StableHlo.after_of_writes_sub hostOps3 _ hostOps3_writes h3))

/-! ## Region 0, then the first aggregation -/

theorem W6_v16 : W6 m ρ c (Proc.devRef .tc main_v16) = pre (m ((c : Thread nD τ).loc main_arg0)) (m ((c : Thread nD τ).loc main_arg1)) (m ((c : Thread nD τ).loc main_arg3)) :=
  (W6_arr m ρ c 3).trans ((array0 (V5 m ρ) c).trans (by
    show scaleMm (M := 100000) (K := 128) (N := 128) (W5 m ρ c (Proc.devRef .tc main_arg0)) (W5 m ρ c (Proc.devRef .tc main_v7)) (W5 m ρ c (Proc.devRef .tc main_arg3)) = _
    rw [W5_arg0, W5_v7, W5_arg3]
    rfl))
theorem W6_arg1 : W6 m ρ c (Proc.devRef .tc main_arg1) = (m ((c : Thread nD τ).loc main_arg1)) := (W6_of_ne m ρ c main_arg1 (by decide)).trans (W5_arg1 m ρ c)
theorem W6_arg2 : W6 m ρ c (Proc.devRef .tc main_arg2) = (m ((c : Thread nD τ).loc main_arg2)) := (W6_of_ne m ρ c main_arg2 (by decide)).trans (W5_arg2 m ρ c)
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)
theorem W6_arg8 : W6 m ρ c (Proc.devRef .tc main_arg8) = (m ((c : Thread nD τ).loc main_arg8)) := (W6_of_ne m ρ c main_arg8 (by decide)).trans (W5_arg8 m ρ c)
theorem W6_arg9 : W6 m ρ c (Proc.devRef .tc main_arg9) = (m ((c : Thread nD τ).loc main_arg9)) := (W6_of_ne m ρ c main_arg9 (by decide)).trans (W5_arg9 m ρ c)
theorem W6_v15 : W6 m ρ c (Proc.devRef .tc main_v15) = col (degFactor (m ((c : Thread nD τ).loc main_arg2))) := (W6_of_ne m ρ c main_v15 (by decide)).trans (W5_v15 m ρ c)
theorem W6_arg0 : W6 m ρ c (Proc.devRef .tc main_arg0) = (m ((c : Thread nD τ).loc main_arg0)) := (W6_in m ρ c 0 rfl).trans (W5_arg0 m ρ c)
theorem W6_v7 : W6 m ρ c (Proc.devRef .tc main_v7) = col (degFactor (m ((c : Thread nD τ).loc main_arg1))) := (W6_in m ρ c 1 rfl).trans (W5_v7 m ρ c)

/-- The host stretch after region 0 aggregates the transformed rows, and recasts the first bias as a row. -/
theorem W7_v26 : W7 m ρ c (Proc.devRef .tc main_v26) = aggregate (pre (m ((c : Thread nD τ).loc main_arg0)) (m ((c : Thread nD τ).loc main_arg1)) (m ((c : Thread nD τ).loc main_arg3))) (m ((c : Thread nD τ).loc main_arg1)) (m ((c : Thread nD τ).loc main_arg2)) := by
  have h : W7 m ρ c (Proc.devRef .tc main_v26)
      = aggregate (W6 m ρ c (Proc.devRef .tc main_v16)) (W6 m ρ c (Proc.devRef .tc main_arg1)) (W6 m ρ c (Proc.devRef .tc main_arg2)) := by
    show StableHlo.after hostOps1 (W6 m ρ c) (Proc.devRef .tc main_v26) = _
    dsimp only [hostOps1]
    after_results_simp <;> rfl
  rw [h, W6_v16, W6_arg1, W6_arg2]
theorem W7_v27 : W7 m ρ c (Proc.devRef .tc main_v27) = row (m ((c : Thread nD τ).loc main_arg4)) := by
  have h : W7 m ρ c (Proc.devRef .tc main_v27) = row (W6 m ρ c (Proc.devRef .tc main_arg4)) := by
    show StableHlo.after hostOps1 (W6 m ρ c) (Proc.devRef .tc main_v27) = _
    dsimp only [hostOps1]
    after_results_simp <;> rfl
  rw [h, W6_arg4]
theorem W7_v15 : W7 m ρ c (Proc.devRef .tc main_v15) = col (degFactor (m ((c : Thread nD τ).loc main_arg2))) :=
  (StableHlo.after_of_writes_sub hostOps1 _ hostOps1_writes (by decide)).trans (W6_v15 m ρ c)

/-! ## Regions 1 and 2, then the second aggregation -/

theorem W8_v28 : W8 m ρ c (Proc.devRef .tc main_v28) = layer1 (m ((c : Thread nD τ).loc main_arg0)) (m ((c : Thread nD τ).loc main_arg1)) (m ((c : Thread nD τ).loc main_arg2)) (m ((c : Thread nD τ).loc main_arg3)) (m ((c : Thread nD τ).loc main_arg4)) :=
  (W8_arr m ρ c 3).trans ((array1 (V7 m ρ) c).trans (by
    show relu (scaleBias (M := 100000) (N := 128) (W7 m ρ c (Proc.devRef .tc main_v26)) (W7 m ρ c (Proc.devRef .tc main_v15)) (W7 m ρ c (Proc.devRef .tc main_v27))) = _
    rw [W7_v26, W7_v15, W7_v27]
    rfl))
theorem W8_v7 : W8 m ρ c (Proc.devRef .tc main_v7) = col (degFactor (m ((c : Thread nD τ).loc main_arg1))) :=
  (W8_of_ne m ρ c main_v7 (by decide)).trans ((StableHlo.after_of_writes_sub hostOps1 _ hostOps1_writes (by decide)).trans (W6_v7 m ρ c))
theorem W8_arg5 : W8 m ρ c (Proc.devRef .tc main_arg5) = (m ((c : Thread nD τ).loc main_arg5)) :=
  (W8_of_ne m ρ c main_arg5 (by decide)).trans ((StableHlo.after_of_writes_sub hostOps1 _ hostOps1_writes (by decide)).trans (W6_arg5 m ρ c))

theorem W9_v29 : W9 m ρ c (Proc.devRef .tc main_v29) = pre (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) :=
  (W9_arr m ρ c 3).trans ((array2 (V8 m ρ) c).trans (by
    show scaleMm (M := 100000) (K := 128) (N := 128) (W8 m ρ c (Proc.devRef .tc main_v28)) (W8 m ρ c (Proc.devRef .tc main_v7)) (W8 m ρ c (Proc.devRef .tc main_arg5)) = _
    rw [W8_v28, W8_v7, W8_arg5]
    rfl))
theorem W9_arg1 : W9 m ρ c (Proc.devRef .tc main_arg1) = (m ((c : Thread nD τ).loc main_arg1)) := (W9_of_W6 m ρ c main_arg1 (by decide) (by decide) (by decide)).trans (W6_arg1 m ρ c)
theorem W9_arg2 : W9 m ρ c (Proc.devRef .tc main_arg2) = (m ((c : Thread nD τ).loc main_arg2)) := (W9_of_W6 m ρ c main_arg2 (by decide) (by decide) (by decide)).trans (W6_arg2 m ρ c)
theorem W9_arg6 : W9 m ρ c (Proc.devRef .tc main_arg6) = (m ((c : Thread nD τ).loc main_arg6)) := (W9_of_W6 m ρ c main_arg6 (by decide) (by decide) (by decide)).trans (W6_arg6 m ρ c)
theorem W9_arg0 : W9 m ρ c (Proc.devRef .tc main_arg0) = (m ((c : Thread nD τ).loc main_arg0)) := (W9_of_W6 m ρ c main_arg0 (by decide) (by decide) (by decide)).trans (W6_arg0 m ρ c)
theorem W9_arg7 : W9 m ρ c (Proc.devRef .tc main_arg7) = (m ((c : Thread nD τ).loc main_arg7)) := (W9_of_W6 m ρ c main_arg7 (by decide) (by decide) (by decide)).trans (W6_arg7 m ρ c)
theorem W9_arg8 : W9 m ρ c (Proc.devRef .tc main_arg8) = (m ((c : Thread nD τ).loc main_arg8)) := (W9_of_W6 m ρ c main_arg8 (by decide) (by decide) (by decide)).trans (W6_arg8 m ρ c)
theorem W9_arg9 : W9 m ρ c (Proc.devRef .tc main_arg9) = (m ((c : Thread nD τ).loc main_arg9)) := (W9_of_W6 m ρ c main_arg9 (by decide) (by decide) (by decide)).trans (W6_arg9 m ρ c)
theorem W9_v15 : W9 m ρ c (Proc.devRef .tc main_v15) = col (degFactor (m ((c : Thread nD τ).loc main_arg2))) :=
  (W9_of_ne m ρ c main_v15 (by decide)).trans ((W8_in m ρ c 1 rfl).trans (W7_v15 m ρ c))

/-- The host stretch after region 2 aggregates again, and recasts the second bias as a row. -/
theorem W10_v39 : W10 m ρ c (Proc.devRef .tc main_v39)
    = aggregate (pre (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5))) (m ((c : Thread nD τ).loc main_arg1)) (m ((c : Thread nD τ).loc main_arg2)) := by
  have h : W10 m ρ c (Proc.devRef .tc main_v39)
      = aggregate (W9 m ρ c (Proc.devRef .tc main_v29)) (W9 m ρ c (Proc.devRef .tc main_arg1)) (W9 m ρ c (Proc.devRef .tc main_arg2)) := by
    show StableHlo.after hostOps3 (W9 m ρ c) (Proc.devRef .tc main_v39) = _
    dsimp only [hostOps3]
    after_results_simp <;> rfl
  rw [h, W9_v29, W9_arg1, W9_arg2]
theorem W10_v40 : W10 m ρ c (Proc.devRef .tc main_v40) = row (m ((c : Thread nD τ).loc main_arg6)) := by
  have h : W10 m ρ c (Proc.devRef .tc main_v40) = row (W9 m ρ c (Proc.devRef .tc main_arg6)) := by
    show StableHlo.after hostOps3 (W9 m ρ c) (Proc.devRef .tc main_v40) = _
    dsimp only [hostOps3]
    after_results_simp <;> rfl
  rw [h, W9_arg6]
theorem W10_v15 : W10 m ρ c (Proc.devRef .tc main_v15) = col (degFactor (m ((c : Thread nD τ).loc main_arg2))) :=
  (StableHlo.after_of_writes_sub hostOps3 _ hostOps3_writes (by decide)).trans (W9_v15 m ρ c)

/-! ## Region 3, the head's bias, region 4 -/

theorem W11_v41 : W11 m ρ c (Proc.devRef .tc main_v41)
    = conv (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6)) :=
  (W11_arr m ρ c 3).trans ((array3 (V10 m ρ) c).trans (by
    show scaleBias (M := 100000) (N := 128) (W10 m ρ c (Proc.devRef .tc main_v39)) (W10 m ρ c (Proc.devRef .tc main_v15)) (W10 m ρ c (Proc.devRef .tc main_v40)) = _
    rw [W10_v39, W10_v15, W10_v40]
    rfl))

theorem W12_v41 : W12 m ρ c (Proc.devRef .tc main_v41)
    = conv (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6)) :=
  (StableHlo.after_of_writes_sub hostOps4 _ hostOps4_writes (by decide)).trans (W11_v41 m ρ c)
theorem W12_arg0 : W12 m ρ c (Proc.devRef .tc main_arg0) = (m ((c : Thread nD τ).loc main_arg0)) := (W12_of_W9 m ρ c main_arg0 (by decide) (by decide) (by decide)).trans (W9_arg0 m ρ c)
theorem W12_arg7 : W12 m ρ c (Proc.devRef .tc main_arg7) = (m ((c : Thread nD τ).loc main_arg7)) := (W12_of_W9 m ρ c main_arg7 (by decide) (by decide) (by decide)).trans (W9_arg7 m ρ c)
theorem W12_arg8 : W12 m ρ c (Proc.devRef .tc main_arg8) = (m ((c : Thread nD τ).loc main_arg8)) := (W12_of_W9 m ρ c main_arg8 (by decide) (by decide) (by decide)).trans (W9_arg8 m ρ c)
theorem W12_v42 : W12 m ρ c (Proc.devRef .tc main_v42) = row2 (m ((c : Thread nD τ).loc main_arg9)) := by
  have h : W12 m ρ c (Proc.devRef .tc main_v42) = row2 (W11 m ρ c (Proc.devRef .tc main_arg9)) := by
    show StableHlo.after hostOps4 (W11 m ρ c) (Proc.devRef .tc main_v42) = _
    dsimp only [hostOps4]
    after_results_simp <;> rfl
  have e : W11 m ρ c (Proc.devRef .tc main_arg9) = (m ((c : Thread nD τ).loc main_arg9)) :=
    (W11_of_ne m ρ c main_arg9 (by decide)).trans ((StableHlo.after_of_writes_sub hostOps3 _ hostOps3_writes (by decide)).trans (W9_arg9 m ρ c))
  rw [h, e]

/-- THE RESULT ARRAY after the last region: the network of the launch contents of the ten arguments. -/
theorem result : W13 m ρ c (Proc.devRef .tc main_v43)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W13_arr m ρ c 5).trans ((array4 (V12 m ρ) c).trans (by
    show head (M := 100000) (K := 128) (N := 2) (W12 m ρ c (Proc.devRef .tc main_v41)) (W12 m ρ c (Proc.devRef .tc main_arg0))
      (W12 m ρ c (Proc.devRef .tc main_arg7)) (W12 m ρ c (Proc.devRef .tc main_arg8)) (W12 m ρ c (Proc.devRef .tc main_v42)) = _
    rw [W12_v41, W12_arg0, W12_arg7, W12_arg8, W12_v42]
    rfl))

end Cert.KernelIdeal.Through

end
-- ==== Proof.ValueRun.lean ====
/-
  The kernel's run with its result read back: every weakly fair execution of @main terminates, nothing faulting, and
  ends with the result buffer at what the last segment boundary holds there and every argument array as launched.

  The run is the launch of @main's thirteen segments; its last thread state holds every unscoped buffer at the
  contents of the last boundary, and reading that state against the final memory gives each buffer's final contents —
  here the result buffer's beside the arguments'. What the last boundary holds at the result buffer is module Through's.
-/
import proofs.«113129_j30442728194391_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer's final contents named beside the unchanged arguments. -/
theorem run : θ_run defs (onTc (τ := τ) (main (F := F))) ⟨m, fun _ => 0, ρ⟩ (fun r => ∀ c : Dev nD,
      r.2.mem ((c.tc : Thread nD τ).loc main_v43) = W13 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v43 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.ValueRun

end
-- ==== Proof.Reference.lean ====
/-
  The reference's result, read one stage at a time, is the network of module Net.

  The reference spells every dense step with host operations: the degree factors are broadcast from a vector to a
  column and then along the rows before they are multiplied in, a bias vector is broadcast to a row and then down the
  rows, the products are general dots. Each such step is the stage of module LibScaledConv at the factors recast as a
  column and the bias recast as a row — which is how the kernel's regions receive them. The degree factors themselves
  and the two aggregations are, operation for operation, the host terms that module Net names: nothing to prove
  there beyond unfolding the names.
-/
import proofs.«113129_j30442728194391_1_alg».proof.Proof.Gen.ReferenceIdeal.Read
import proofs.«113129_j30442728194391_1_alg».proof.Proof.Net

noncomputable section

namespace Cert.ReferenceIdeal.Stages

open Idealize.ShloMosaic Idealize.ShloMosaic.TcCoe Idealize.SL.Sem
open Cert.KernelIdeal.Facts₀ Cert.KernelIdeal.Facts Cert.KernelIdeal.Net Cert.ScaledConv Cert.DenseLib
open Cert.ReferenceIdeal.Read

variable (x : FVec Ideal Cert.KernelIdeal.S100000x128 .f32) (src dst : IVec Cert.KernelIdeal.S1600000 32)
  (W1 : FVec Ideal Cert.KernelIdeal.S128x128 .f32) (b1 : FVec Ideal Cert.KernelIdeal.S128 .f32)
  (W2 : FVec Ideal Cert.KernelIdeal.S128x128 .f32) (b2 : FVec Ideal Cert.KernelIdeal.S128 .f32)
  (Wr : FVec Ideal Cert.KernelIdeal.S128x128 .f32) (Wm : FVec Ideal Cert.KernelIdeal.S128x2 .f32) (bm : FVec Ideal Cert.KernelIdeal.S2 .f32)

theorem dot_square : Cert.ReferenceIdeal.dot_S100000x128_S128x128_S100000x128_1_0_0_1_n_n = DotDims.plain 100000 128 128 := rfl
theorem dot_head : Cert.ReferenceIdeal.dot_S100000x128_S128x2_S100000x2_1_0_0_1_n_n = DotDims.plain 100000 128 2 := rfl

/-- The reference's out-degree factors are the named ones. -/
theorem factor_out : val_main_v6 (F := Ideal) src = degFactor src := rfl
/-- The reference's in-degree factors likewise. -/
theorem factor_in : val_main_v13 (F := Ideal) dst = degFactor dst := rfl

/-- The first layer's transformed rows. -/
theorem pre1 : val_main_v17 (F := Ideal) x src W1 = pre x src W1 :=
  (dotGeneral_mulf_broadcastVec _ dot_square x (val_main_v6 (F := Ideal) src) W1 _ _ Cert.KernelIdeal.Facts₀.shapeCasts_S100000_S100000x1).trans (by
    rw [factor_out]; rfl)

/-- Their aggregate: the same gather and scatter. -/
theorem agg1 : val_main_v27 (F := Ideal) x src dst W1 = aggregate (val_main_v17 (F := Ideal) x src W1) src dst := rfl

/-- The first convolution before its cut. -/
theorem conv1 : val_main_v33 (F := Ideal) x src dst W1 b1 = conv x src dst W1 b1 :=
  (addf_mulf_broadcastVec (val_main_v27 (F := Ideal) x src dst W1) (val_main_v13 (F := Ideal) dst) b1 _ _ _ _
    Cert.KernelIdeal.Facts₀.shapeCasts_S100000_S100000x1 Cert.KernelIdeal.Facts₀.shapeCasts_S128_S1x128).trans (by
    rw [agg1, pre1, factor_in]; rfl)

/-- The first layer. -/
theorem lay1 : val_main_v34 (F := Ideal) x src dst W1 b1 = layer1 x src dst W1 b1 :=
  (maximumf_bcast_zero (val_main_v33 (F := Ideal) x src dst W1 b1) _).trans (by rw [conv1]; rfl)

/-- The second layer's transformed rows. -/
theorem pre2 : val_main_v38 (F := Ideal) x src dst W1 b1 W2 = pre (layer1 x src dst W1 b1) src W2 :=
  (dotGeneral_mulf_broadcastVec _ dot_square (val_main_v34 (F := Ideal) x src dst W1 b1) (val_main_v6 (F := Ideal) src) W2 _ _
    Cert.KernelIdeal.Facts₀.shapeCasts_S100000_S100000x1).trans (by
    rw [factor_out, lay1]; rfl)

/-- Their aggregate. -/
theorem agg2 : val_main_v48 (F := Ideal) x src dst W1 b1 W2 = aggregate (val_main_v38 (F := Ideal) x src dst W1 b1 W2) src dst := rfl

/-- The second convolution. -/
theorem conv2 : val_main_v54 (F := Ideal) x src dst W1 b1 W2 b2 = conv (layer1 x src dst W1 b1) src dst W2 b2 :=
  (addf_mulf_broadcastVec (val_main_v48 (F := Ideal) x src dst W1 b1 W2) (val_main_v13 (F := Ideal) dst) b2 _ _ _ _
    Cert.KernelIdeal.Facts₀.shapeCasts_S100000_S100000x1 Cert.KernelIdeal.Facts₀.shapeCasts_S128_S1x128).trans (by
    rw [agg2, pre2, factor_in]; rfl)

/-- THE REFERENCE'S RESULT as a function of its arguments: the network. -/
theorem result : val_main_v60 (F := Ideal) x src dst W1 b1 W2 b2 Wr Wm bm = net x src dst W1 b1 W2 b2 Wr Wm bm :=
  (head_host _ dot_square _ dot_head (val_main_v54 (F := Ideal) x src dst W1 b1 W2 b2) x Wr Wm bm _ _
    Cert.KernelIdeal.Facts₀.shapeCasts_S2_S1x2).trans (by
    rw [conv2]; rfl)

end Cert.ReferenceIdeal.Stages

end
-- ==== Proof.lean ====
/-
  Two layers of a graph convolution with symmetric degree scaling, a residual and a linear head, on 100000 nodes and
  1600000 edges: the kernel's five tiled regions among host gathers and scatters, against the plain reference.

  Over the extended reals both programs compute one function of the ten argument arrays (module Net): with `d_out`,
  `d_in` the clamped degrees to the power −1/2 and `aggregate` the sum over incoming edges of the sources' rows,

      h₁ = max (aggregate ((x ⊙ d_out) · W₁) ⊙ d_in + b₁, 0),   h₂ = aggregate ((h₁ ⊙ d_out) · W₂) ⊙ d_in + b₂,
      out = (h₂ + x · W_res) · W_head + b_head.

  The two programs arrange it identically — scale, multiply, aggregate, scale, add the bias —, so no law of the
  extended reals beyond reading each operation at an index is needed, and the inputs' finiteness is not used. The
  kernel computes the dense steps 5000 rows at a time with the factors as columns and the biases as rows, the changes
  of float format being the identity here and each product accumulated into zero (modules Blocks, Regions, Through);
  the reference computes them whole with the factors and biases broadcast from vectors (module Reference). The degree
  factors and the aggregations are the same host operations in both and are never opened.

  The three frames: the kernel's two are its generated frame certificates; the reference's is its generated run with
  the result dropped. The kernel's idealization rewrote no operation, so there is nothing to preserve.
-/
import proofs.«113129_j30442728194391_1_alg».proof.Defs
import proofs.«113129_j30442728194391_1_alg».proof.Proof.Gen.Kernel
import proofs.«113129_j30442728194391_1_alg».proof.Proof.Gen.Kernel.Skeleton
import proofs.«113129_j30442728194391_1_alg».proof.Proof.Gen.Kernel.Launch
import proofs.«113129_j30442728194391_1_alg».proof.Proof.Gen.Kernel.Points
import proofs.«113129_j30442728194391_1_alg».proof.Proof.Gen.Kernel.Frame
import proofs.«113129_j30442728194391_1_alg».proof.Proof.Gen.KernelIdeal
import proofs.«113129_j30442728194391_1_alg».proof.Proof.Gen.KernelIdeal.Skeleton
import proofs.«113129_j30442728194391_1_alg».proof.Proof.Gen.KernelIdeal.Launch
import proofs.«113129_j30442728194391_1_alg».proof.Proof.Gen.KernelIdeal.Points
import proofs.«113129_j30442728194391_1_alg».proof.Proof.Gen.KernelIdeal.Frame
import proofs.«113129_j30442728194391_1_alg».proof.Proof.Gen.ReferenceIdeal
import proofs.«113129_j30442728194391_1_alg».proof.Proof.Gen.Pre_finite_inputs
import proofs.«113129_j30442728194391_1_alg».proof.Proof.Gen.ReferenceIdeal.Run
import proofs.«113129_j30442728194391_1_alg».proof.Proof.Gen.ReferenceIdeal.Read
import proofs.«113129_j30442728194391_1_alg».proof.Proof.Through
import proofs.«113129_j30442728194391_1_alg».proof.Proof.ValueRun
import proofs.«113129_j30442728194391_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the network of those arguments in
    their result arrays. -/
theorem algebraic : Cert.algebraic_KernelIdeal_ReferenceIdeal := by
  intro m ρ m' ρ' _ hagree
  refine ⟨fun c => Cert.KernelIdeal.Net.net
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Through.result m ρ c), (h c).2⟩)
      (Cert.KernelIdeal.ValueRun.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9⟩ := hagree c
    refine (h c).1.trans ((Cert.ReferenceIdeal.Read.val_main_v60_eq m' c).trans
      ((Cert.ReferenceIdeal.Stages.result _ _ _ _ _ _ _ _ _ _).trans ?_))
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
